-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x40 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S5000x256 : Shape := ⟨2, ![5000, 256]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S5000x1 : Shape := ⟨2, ![5000, 1]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩

abbrev nBuf : Space → Nat
  | .hbm => 82
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x1, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x1, .f32⟩
  | .hbm, ⟨60, _⟩ => ⟨S1x128, .f32⟩
  | .hbm, ⟨61, _⟩ => ⟨S100000x128, .f32⟩
  | .hbm, ⟨62, _⟩ => ⟨S100000x40, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x40, .f32⟩
  | .hbm, ⟨72, _⟩ => ⟨S1600000x1, .f32⟩
  | .hbm, ⟨73, _⟩ => ⟨S1600000x40, .f32⟩
  | .hbm, ⟨74, _⟩ => ⟨S1600000x40, .f32⟩
  | .hbm, ⟨75, _⟩ => ⟨S_, .f32⟩
  | .hbm, ⟨76, _⟩ => ⟨S100000x40, .f32⟩
  | .hbm, ⟨77, _⟩ => ⟨S1600000x1, .i32⟩
  | .hbm, ⟨78, _⟩ => ⟨S100000x40, .f32⟩
  | .hbm, ⟨79, _⟩ => ⟨S100000x1, .f32⟩
  | .hbm, ⟨80, _⟩ => ⟨S1x40, .f32⟩
  | .hbm, ⟨81, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x40, .f32⟩
  | .local _ .vmem, ⟨17, _⟩ => ⟨S5000x40, .f32⟩
  | .local _ .vmem, ⟨18, _⟩ => ⟨S5000x40, .f32⟩
  | .local _ .vmem, ⟨19, _⟩ => ⟨S5000x40, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S5000x1, .f32⟩
  | .local _ .vmem, ⟨24, _⟩ => ⟨S5000x1, .f32⟩
  | .local _ .vmem, ⟨25, _⟩ => ⟨S1x40, .f32⟩
  | .local _ .vmem, ⟨26, _⟩ => ⟨S5000x40, .f32⟩
  | .local _ .vmem, ⟨27, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S5000x1_S5000x40 : S5000x1.Broadcasts S5000x40
  broadcasts_S1x40_S5000x40 : S1x40.Broadcasts S5000x40
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x40.size a ≤ S100000x40.size a
  hwx3_1 : ∀ i : grid3.Coords, EltTy.bits .f32 = 32 ∨ (Rect.block (s := S100000x40) S5000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x40.size a ≤ S100000x40.size a
  hwx3_4 : ∀ i : grid3.Coords, EltTy.bits .f32 = 32 ∨ (Rect.block (s := S100000x40) S5000x40.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S5000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 129
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x40, .f32⟩
  | 5 => ⟨S40, .f32⟩
  | 6 => ⟨S100000x128, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S1600000x1, .f32⟩
  | 50 => ⟨S1600000x128, .f32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S_, .f32⟩
  | 57 => ⟨S100000, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x40, .f32⟩
  | 70 => ⟨S1x1600000, .i32⟩
  | 71 => ⟨S1600000, .i32⟩
  | 72 => ⟨S1x1600000, .i32⟩
  | 73 => ⟨S1600000, .i32⟩
  | 74 => ⟨S_, .f32⟩
  | 75 => ⟨S1600000, .f32⟩
  | 76 => ⟨S_, .f32⟩
  | 77 => ⟨S100000, .f32⟩
  | 78 => ⟨S1600000x1, .i32⟩
  | 79 => ⟨S100000, .f32⟩
  | 80 => ⟨S_, .f32⟩
  | 81 => ⟨S100000, .f32⟩
  | 82 => ⟨S100000, .f32⟩
  | 83 => ⟨S100000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x40, .f32⟩
  | 112 => ⟨S1600000x1, .f32⟩
  | 113 => ⟨S1600000x40, .f32⟩
  | 114 => ⟨S1600000x40, .f32⟩
  | 115 => ⟨S_, .f32⟩
  | 116 => ⟨S100000x40, .f32⟩
  | 117 => ⟨S1600000x1, .i32⟩
  | 118 => ⟨S100000x40, .f32⟩
  | 119 => ⟨S_, .f32⟩
  | 120 => ⟨S100000, .f32⟩
  | 121 => ⟨S100000, .f32⟩
  | 122 => ⟨S100000x1, .f32⟩
  | 123 => ⟨S100000x40, .f32⟩
  | 124 => ⟨S100000x40, .f32⟩
  | 125 => ⟨S100000x40, .f32⟩
  | 126 => ⟨S1x40, .f32⟩
  | 127 => ⟨S100000x40, .f32⟩
  | _ => ⟨S100000x256, .f32⟩

abbrev hbmTy0_1 (i : Nat) : BufTy := match i % 128 with
  | 0 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_14 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_16 : Ref sig .tc := ⟨.hbm, 103, rfl⟩
abbrev main_v77 : Ref sig .tc := ⟨.hbm, 104, rfl⟩
abbrev main_v78 : Ref sig .tc := ⟨.hbm, 105, rfl⟩
abbrev main_c_17 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_18 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_19 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.ResultRun.lean ====
/-
  The idealized kernel's whole run, with the result buffer named.

  @main is seven segments: three stretches of host operations and four kernel regions. Between two segments the
  TensorCore's unscoped buffers hold a known valuation — the launch memory, then each host stretch's operations applied,
  then each region's arrays replaced by what its write-backs leave. The last of these valuations is what every
  unscoped buffer holds when @main returns; read at the result buffer it is the result, and read at an argument it is
  that argument's launch contents, since nothing writes an argument.
-/
import proofs.«180480_j15985868276092_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the last boundary
    valuation read at it, and each argument array its launch contents. -/
theorem run_result : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Whole

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.LibColumnBroadcast.lean ====
/-
  One column broadcast over many: an [a, 1] array broadcast to [a, b] reads, at (p, c), the operand's one column at row p,
  whatever the column c.  General in a and b.
-/
import Idealize.ShloMosaic.Lib.Pipeline.Value
import Idealize.ShloMosaic.Lib.ValueIdx

noncomputable section

namespace Cert.LibColumnBroadcast

open Idealize.ShloMosaic Idealize.ShloMosaic.ValueIdx

/-- An `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumnBroadcast

end
-- ==== Proof.LayerSpec.lean ====
/-
  The mathematics of one graph-convolution layer over the extended reals, and the two spellings of each of its parts.

  A layer takes node features h (one row per node), multiplies them by a weight matrix, and combines, entry by entry,
  the neighbour aggregate of the product, the product itself scaled per row by the inverse degree, and a bias per
  column:  out(r, c) = agg(r, c) + p(r, c) · invdeg(r) + b(c),  the first layer followed by max(·, 0).

  * The product p = h · W is the textbook sum  p(r, c) = ∑ₖ h(r, k) · W(k, c).  A host dot_general of the whole matrices is
    that sum, and so is a matrix unit's product, into a zero accumulator, of a block of consecutive rows of h with W,
    read at the block's own row: the sum is over k only, so a row of the product depends on that row of h alone.
  * The combination is spelt once with the inverse degree as an [M, 1] column and the bias as a [1, N] row, each
    broadcast across the other axis, and once with rank-1 vectors broadcast in two steps; read at an entry the two
    agree, a broadcast reading its operand at the coordinates it keeps.
  No sum is reordered and no factor moved, so nothing here needs finite entries.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«180480_j15985868276092_1_alg».proof.Proof.LibPlainDot
import proofs.«180480_j15985868276092_1_alg».proof.Proof.LibColumnBroadcast

noncomputable section

namespace Cert.Layer

open Idealize.ShloMosaic Idealize.ShloMosaic.ValueIdx

/-! ## The product -/

/-- The product of an [M, K] matrix with a [K, N] matrix: entry (r, c) is ∑ₖ x(r, k) · w(k, c). -/
def matProd {M K N : Nat} (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

theorem matProd_apply {M K N : Nat} (x : FVec Ideal ⟨2, ![M, K]⟩ .f32) (w : FVec Ideal ⟨2, ![K, N]⟩ .f32) (r : Fin M) (c : Fin N) :
    matProd x w (ix2 r c) = ∑ k : Fin K, x (ix2 r k) * w (ix2 k c) := rfl

/-- The host's dot_general of the whole matrices is the product. -/
theorem dotGeneral_eq_matProd {M K N : Nat}
    (wf : DotDims.WF (⟨2, ![M, K]⟩ : Shape) ⟨2, ![K, N]⟩ ⟨2, ![M, N]⟩ [1] [0] [0] [1] [] [])
    (prec : Option ContractPrecision) (sched : HostSchedule)
    (x : FVec Ideal ⟨2, ![M, K]⟩ .f32) (w : FVec Ideal ⟨2, ![K, N]⟩ .f32) :
    FloatOps.dotGeneral (Cert.LibPlainDot.dims wf) prec sched x w = matProd x w := by
  funext j
  obtain ⟨r, c, rfl⟩ : ∃ (r : Fin M) (c : Fin N), j = ix2 r c := ⟨j 0, j 1, eq_ix2 j⟩
  exact Cert.LibPlainDot.dotGeneral_apply wf prec sched x w r c

/-- A matrix unit's product, into zero, of a block of B rows (whatever format the block's entries were changed to)
    with the right factor, read at the block's row p: the product's row off + p, when the block's row p is the long
    matrix's row off + p. -/
theorem matmul_block_apply {M K N B : Nat} {φ₁ φ₂ : FTy}
    (wfB : DotDims.WF (⟨2, ![B, K]⟩ : Shape) ⟨2, ![K, N]⟩ ⟨2, ![B, N]⟩ [1] [0] [0] [1] [] [])
    (prec : Option ContractPrecision)
    (x : FVec Ideal ⟨2, ![M, K]⟩ .f32) (w : FVec Ideal ⟨2, ![K, N]⟩ .f32)
    (xb : FVec Ideal ⟨2, ![B, K]⟩ φ₁) (wb : FVec Ideal ⟨2, ![K, N]⟩ φ₂)
    (p : Fin B) (c : Fin N) (r : Fin M)
    (hx : ∀ k : Fin K, xb (ix2 p k) = x (ix2 r k)) (hw : ∀ k : Fin K, wb (ix2 k c) = w (ix2 k c)) :
    FloatOps.matmul (Cert.LibPlainDot.dims wfB) prec xb wb (constant ⟨2, ![B, N]⟩ .f32 0x00000000#32) (ix2 p c)
      = matProd x w (ix2 r c) := by
  rw [Cert.LibPlainDot.matmul_zero_apply, matProd_apply]
  exact Finset.sum_congr rfl fun k _ => by rw [hx k, hw k]

/-! ## The combination -/

/-- One layer's combination, the inverse degree an [M, 1] column and the bias a [1, N] row. -/
def combine {M N : Nat} (agg p : FVec Ideal ⟨2, ![M, N]⟩ .f32) (invdeg : FVec Ideal ⟨2, ![M, 1]⟩ .f32)
    (b : FVec Ideal ⟨2, ![1, N]⟩ .f32) : FVec Ideal ⟨2, ![M, N]⟩ .f32 :=
  fun i => agg i + p i * invdeg (ix2 (i 0) (0 : Fin 1)) + b (ix2 (0 : Fin 1) (i 1))

/-- The same followed by max(·, 0). -/
def combineRelu {M N : Nat} (agg p : FVec Ideal ⟨2, ![M, N]⟩ .f32) (invdeg : FVec Ideal ⟨2, ![M, 1]⟩ .f32)
    (b : FVec Ideal ⟨2, ![1, N]⟩ .f32) : FVec Ideal ⟨2, ![M, N]⟩ .f32 :=
  fun i => max (combine agg p invdeg b i) (Ideal.ofBits .f32 0x00000000#32)

/-! ## Layout operations read at an entry -/

section Layout
variable {α : Type}

/-- A length-a vector broadcast along axis 0 into [a, 1] reads, at (p, u), the vector at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An [a, 1] column broadcast along both axes into [a, b] reads, at (p, c), the column at (p, 0). -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A length-b vector broadcast along axis 1 into [1, b] reads, at (u, c), the vector at c. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A [1, b] row broadcast along both axes into [a, b] reads, at (p, c), the row at (0, c). -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply ![0, 1] h x (ix2 p c) (ix2 (0 : Fin 1) c) fun ax => ?_
  match ax with
  | ⟨0, _⟩ =>
    show 0 = if (1 : ℕ) = 1 then 0 else p.val
    rw [if_pos rfl]
  | ⟨1, _⟩ =>
    show c.val = if b = 1 then 0 else c.val
    split
    · have := c.isLt; omega
    · rfl

/-- A length-a vector reshaped to an [a, 1] column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

/-! ## The reference's spelling of the combination -/

/-- The rank-1 inverse degree and bias, each broadcast in two steps to the full shape, combined elementwise: the
    combination with the column and the row the reshapes of those vectors. -/
theorem bcast_combine_eq {M N : Nat} (agg p : FVec Ideal ⟨2, ![M, N]⟩ .f32) (invdeg : FVec Ideal ⟨1, ![M]⟩ .f32)
    (b : FVec Ideal ⟨1, ![N]⟩ .f32)
    (hi1 : (⟨1, ![M]⟩ : Shape).BroadcastsInDim ⟨2, ![M, 1]⟩ ![0])
    (hi2 : (⟨2, ![M, 1]⟩ : Shape).BroadcastsInDim ⟨2, ![M, N]⟩ ![0, 1])
    (hb1 : (⟨1, ![N]⟩ : Shape).BroadcastsInDim ⟨2, ![1, N]⟩ ![1])
    (hb2 : (⟨2, ![1, N]⟩ : Shape).BroadcastsInDim ⟨2, ![M, N]⟩ ![0, 1])
    (ci : (⟨1, ![M]⟩ : Shape).ShapeCasts ⟨2, ![M, 1]⟩) (cb : (⟨1, ![N]⟩ : Shape).ShapeCasts ⟨2, ![1, N]⟩) :
    addf (addf agg (mulf p (broadcastInDim ⟨2, ![M, N]⟩ ![0, 1] hi2 (broadcastInDim ⟨2, ![M, 1]⟩ ![0] hi1 invdeg))))
        (broadcastInDim ⟨2, ![M, N]⟩ ![0, 1] hb2 (broadcastInDim ⟨2, ![1, N]⟩ ![1] hb1 b))
      = combine agg p (shapeCast ⟨2, ![M, 1]⟩ invdeg ci) (shapeCast ⟨2, ![1, N]⟩ b cb) := by
  funext j
  obtain ⟨r, c, rfl⟩ : ∃ (r : Fin M) (c : Fin N), j = ix2 r c := ⟨j 0, j 1, eq_ix2 j⟩
  show agg (ix2 r c) + p (ix2 r c) * broadcastInDim ⟨2, ![M, N]⟩ ![0, 1] hi2 (broadcastInDim ⟨2, ![M, 1]⟩ ![0] hi1 invdeg) (ix2 r c)
      + broadcastInDim ⟨2, ![M, N]⟩ ![0, 1] hb2 (broadcastInDim ⟨2, ![1, N]⟩ ![1] hb1 b) (ix2 r c)
    = agg (ix2 r c) + p (ix2 r c) * shapeCast ⟨2, ![M, 1]⟩ invdeg ci (ix2 r (0 : Fin 1))
      + shapeCast ⟨2, ![1, N]⟩ b cb (ix2 (0 : Fin 1) c)
  rw [broadcastInDim_a1_ab_apply, broadcastInDim_a_a1_apply, broadcastInDim_1b_ab_apply, broadcastInDim_b_1b_apply,
    shapeCast_a_a1_apply, shapeCast_a_1a_apply]

end Cert.Layer

end
-- ==== Proof.Region0Product.lean ====
/-
  Region 0: the product x · W₁ of the [100000, 256] features with the [256, 128] weights, computed 5000 rows at a time.

  The grid has 20 points. Point t loads rows 5000·t … 5000·t + 4999 of the left matrix and the whole right matrix, and
  writes the matrix unit's product of the two (into a zero accumulator) back as the same rows of the output. Entry
  (p, q) of that block is ∑ₖ h(5000·t + p, k) · W(k, q), which is entry (5000·t + p, q) of the whole product: what a point
  writes back is its block of ONE array. The 20 blocks tile the 100000 rows — row r lies in block r / 5000 — so after the
  region the output array is the product of the two arrays the region found.
-/
import proofs.«180480_j15985868276092_1_alg».proof.Proof.Gen.KernelIdeal.Frame
import proofs.«180480_j15985868276092_1_alg».proof.Proof.LayerSpec
import Idealize.ShloMosaic.Lib.Pipeline.Value

set_option maxRecDepth 16384

noncomputable section

namespace Cert.KernelIdeal.Whole

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin0 : (![0, 0] : Fin 2 → Nat) = fun _ => 0 := funext fun a => by fin_cases a <;> rfl

/-- The body's one stored value at entry (p, q): row r of the whole product, when the loaded left block's row p is the
    left matrix's row r and the loaded right block is the right matrix. -/
theorem block_entry0 (x : FVec Ideal ⟨2, ![100000, 256]⟩ .f32) (w : FVec Ideal ⟨2, ![256, 128]⟩ .f32)
    (x0 : Vec Ideal S5000x256 .f32) (x1 : Vec Ideal S256x128 .f32) (p : Fin 5000) (q : Fin 128) (r : Fin 100000)
    (hx : ∀ k : Fin 256, x0 (ix2 p k) = x (ix2 r k)) (hw : ∀ k : Fin 256, x1 (ix2 k q) = w (ix2 k q)) :
    k0_pay1 x0 x1 (ix2 p q) = Cert.Layer.matProd x w (ix2 r q) := by
  unfold k0_pay1
  exact Cert.Layer.matmul_block_apply (φ₁ := .bf16) (φ₂ := .bf16) dot_S5000x256_S256x128_S5000x128_1_0_0_1_n_n.wf none x w _ _ p q r hx hw

/-- The printed index maps over the grid: the left and the output window move down one block of rows per point, the
    right window stays. -/
theorem index_maps0 : ∀ t : Fin cfg0.N, t.val < 20
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is its block of the product of the arrays the region found. -/
theorem flushed_prod0 (c : Dev nD) (t : Fin cfg0.N) :
    (dat0 V c).flushed 2 t
      = ((cfg0.win 2).blk t).view.read (Elt Ideal) (Cert.Layer.matProd (V c main_arg0) (V c main_arg2)) := by
  show (cfg0.win 2).cut (grid0.coords t) ((dat0 V c).after 2 t) = _
  rw [after0_2]
  unfold out0_2
  rw [View.canon_unit_zero origin0]
  simp only [View.ld_unit_zero (S := S5000x256) origin0, View.ld_unit_zero (S := S256x128) origin0]
  obtain ⟨ht, a0, a1, b0, b1, o0, o1⟩ := index_maps0 t
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  show k0_pay1 (iblk0 V c 0 t) (iblk0 V c 1 t) (ix2 p q)
    = Cert.Layer.matProd (V c main_arg0) (V c main_arg2) (((cfg0.win 2).blk t).view.emb (ix2 p q))
  have hout : ((cfg0.win 2).blk t).view.emb (ix2 p q) = ix2 (⟨t.val * 5000 + p.val, hr⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hout]
  refine block_entry0 (V c main_arg0) (V c main_arg2) (iblk0 V c 0 t) (iblk0 V c 1 t) p q ⟨t.val * 5000 + p.val, hr⟩
    (fun k => ?_) (fun k => ?_)
  · show V c main_arg0 (((cfg0.win 0).blk t).view.emb (ix2 p k)) = V c main_arg0 (ix2 (⟨t.val * 5000 + p.val, hr⟩ : Fin 100000) k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 256 + 1 * k.val = k.val; omega
  · show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega

/-- An index of the output array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Every index of the output array is in some point's block: row r is in block r / 5000. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_block0]
  obtain ⟨ht, a0, a1, b0, b1, o0, o1⟩ := index_maps0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [o0]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [o1]; omega

/-- After the region its output array is the product of the two arrays it found. -/
theorem region0_array (c : Dev nD) :
    (dat0 V c).arrAt 2 cfg0.N = Cert.Layer.matProd (V c main_arg0) (V c main_arg2) :=
  (dat0 V c).arrAt_eq_of_cover 2 _ (fun t _ => flushed_prod0 V c t) covered0

end Cert.KernelIdeal.Whole

end
-- ==== Proof.Region1Combine.lean ====
/-
  Region 1: one layer's combination, followed by max(·, 0), computed 5000 rows at a time.

  The grid has 20 points. Point t loads rows 5000·t … 5000·t + 4999 of the aggregate, of the product and of the
  inverse-degree column, and the whole bias row, and writes back, as the same rows of the output,
      agg(p, q) + prod(p, q) · invdeg(p, 0) + bias(0, q)   and then the larger of that and 0
  — the column broadcast across the 128 columns and the row across the 5000 rows. Every operand is read at the output's own
  row, so what a point writes back is its block of ONE array, the combination of the whole arrays. The 20 blocks tile
  the 100000 rows — row r lies in block r / 5000 — so after the region the output array is that combination of the four
  arrays the region found.
-/
import proofs.«180480_j15985868276092_1_alg».proof.Proof.Gen.KernelIdeal.Frame
import proofs.«180480_j15985868276092_1_alg».proof.Proof.LayerSpec
import Idealize.ShloMosaic.Lib.Pipeline.Value
import Idealize.ShloMosaic.Lib.ValueLayout

set_option maxRecDepth 16384

noncomputable section

namespace Cert.KernelIdeal.Whole

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin1 : (![0, 0] : Fin 2 → Nat) = fun _ => 0 := funext fun a => by fin_cases a <;> rfl

/-- The body's one stored value at entry (p, q), from the four loaded blocks. -/
theorem block_entry1 (v0 v2 : Vec Ideal S5000x128 .f32) (v4 : Vec Ideal S5000x1 .f32) (v6 : Vec Ideal S1x128 .f32)
    (p : Fin 5000) (q : Fin 128) :
    k1_pay1 v0 v2 v4 v6 (ix2 p q)
      = max (v0 (ix2 p q) + v2 (ix2 p q) * v4 (ix2 p (0 : Fin 1)) + v6 (ix2 (0 : Fin 1) q)) (Ideal.ofBits .f32 0x00000000#32) := by
  unfold k1_pay1
  rw [shapeCast_self v0, shapeCast_self v2, shapeCast_self v4, shapeCast_self v6]
  show max (v0 (ix2 p q) + v2 (ix2 p q) * broadcastTo S5000x128 v4 broadcasts_S5000x1_S5000x128 (ix2 p q)
      + broadcastTo S5000x128 v6 broadcasts_S1x128_S5000x128 (ix2 p q)) (Ideal.ofBits .f32 0x00000000#32) = _
  rw [Cert.LibColumnBroadcast.broadcastTo_a1_ab_apply, broadcastTo_1b_ab_apply]

/-- The same against the whole arrays: when the four loaded blocks, at the coordinates the entry reads, are the arrays at
    row r, the stored value at (p, q) is the combination of the arrays at (r, q). -/
theorem block_entry_arrays1 (A P : FVec Ideal ⟨2, ![100000, 128]⟩ .f32) (I : FVec Ideal ⟨2, ![100000, 1]⟩ .f32)
    (Bi : FVec Ideal ⟨2, ![1, 128]⟩ .f32)
    (v0 v2 : Vec Ideal S5000x128 .f32) (v4 : Vec Ideal S5000x1 .f32) (v6 : Vec Ideal S1x128 .f32)
    (p : Fin 5000) (q : Fin 128) (r : Fin 100000)
    (h0 : v0 (ix2 p q) = A (ix2 r q)) (h1 : v2 (ix2 p q) = P (ix2 r q))
    (h2 : v4 (ix2 p (0 : Fin 1)) = I (ix2 r (0 : Fin 1))) (h3 : v6 (ix2 (0 : Fin 1) q) = Bi (ix2 (0 : Fin 1) q)) :
    k1_pay1 v0 v2 v4 v6 (ix2 p q) = Cert.Layer.combineRelu A P I Bi (ix2 r q) := by
  rw [block_entry1, h0, h1, h2, h3]
  rfl

/-- The printed index maps over the grid: the aggregate's, the product's, the column's and the output's windows move down
    one block of rows per point, the bias row's stays. -/
theorem index_maps1 : ∀ t : Fin cfg1.N, t.val < 20
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is its block of the combination of the arrays the region found. -/
theorem flushed_combine1 (c : Dev nD) (t : Fin cfg1.N) :
    (dat1 V c).flushed 4 t
      = ((cfg1.win 4).blk t).view.read (Elt Ideal)
          (Cert.Layer.combineRelu (V c main_v41) (V c main_v28) (V c main_v42) (V c main_v43)) := by
  show (cfg1.win 4).cut (grid1.coords t) ((dat1 V c).after 4 t) = _
  rw [after1_4]
  unfold out1_4
  rw [View.canon_unit_zero origin1]
  simp only [View.ld_unit_zero (S := S5000x128) origin1, View.ld_unit_zero (S := S5000x1) origin1, View.ld_unit_zero (S := S1x128) origin1]
  obtain ⟨ht, a0, a1, b0, b1, d0, d1, e0, e1, o0, o1⟩ := index_maps1 t
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  show k1_pay1 (iblk1 V c 0 t) (iblk1 V c 1 t) (iblk1 V c 2 t) (iblk1 V c 3 t) (ix2 p q)
    = Cert.Layer.combineRelu (V c main_v41) (V c main_v28) (V c main_v42) (V c main_v43) (((cfg1.win 4).blk t).view.emb (ix2 p q))
  have hout : ((cfg1.win 4).blk t).view.emb (ix2 p q) = ix2 (⟨t.val * 5000 + p.val, hr⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  rw [hout]
  refine block_entry_arrays1 (V c main_v41) (V c main_v28) (V c main_v42) (V c main_v43)
    (iblk1 V c 0 t) (iblk1 V c 1 t) (iblk1 V c 2 t) (iblk1 V c 3 t) p q ⟨t.val * 5000 + p.val, hr⟩ ?_ ?_ ?_ ?_
  · show V c main_v41 (((cfg1.win 0).blk t).view.emb (ix2 p q)) = V c main_v41 (ix2 (⟨t.val * 5000 + p.val, hr⟩ : Fin 100000) q)
    refine congrArg (V c main_v41) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * q.val = q.val; omega
  · show V c main_v28 (((cfg1.win 1).blk t).view.emb (ix2 p q)) = V c main_v28 (ix2 (⟨t.val * 5000 + p.val, hr⟩ : Fin 100000) q)
    refine congrArg (V c main_v28) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * q.val = q.val; omega
  · show V c main_v42 (((cfg1.win 2).blk t).view.emb (ix2 p (0 : Fin 1))) = V c main_v42 (ix2 (⟨t.val * 5000 + p.val, hr⟩ : Fin 100000) (0 : Fin 1))
    refine congrArg (V c main_v42) (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  · show V c main_v43 (((cfg1.win 3).blk t).view.emb (ix2 (0 : Fin 1) q)) = V c main_v43 (ix2 (0 : Fin 1) q)
    refine congrArg (V c main_v43) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega

/-- An index of the output array is in point t's block iff each coordinate is in the block's range on its axis. -/
theorem mem_block1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v44).slice (win1_4.rect t)).set ↔ _
  rw [View.set_slice_whole, Rect.mem_set_unit]
  exact Iff.rfl

/-- Every index of the output array is in some point's block: row r is in block r / 5000. -/
theorem covered1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_4 _, ?_⟩
  rw [mem_block1]
  obtain ⟨ht, a0, a1, b0, b1, d0, d1, e0, e1, o0, o1⟩ := index_maps1 ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [o0]; show (i 0).val / 5000 * 5000 ≤ (i 0).val ∧ (i 0).val < (i 0).val / 5000 * 5000 + 5000; omega
  | ⟨1, _⟩ =>
    show win1_4.index _ (1 : Fin 2) * 128 ≤ (i 1).val ∧ (i 1).val < win1_4.index _ (1 : Fin 2) * 128 + 128
    rw [o1]; omega

/-- After the region its output array is the combination of the four arrays it found. -/
theorem region1_array (c : Dev nD) :
    (dat1 V c).arrAt 4 cfg1.N
      = Cert.Layer.combineRelu (V c main_v41) (V c main_v28) (V c main_v42) (V c main_v43) :=
  (dat1 V c).arrAt_eq_of_cover 4 _ (fun t _ => flushed_combine1 V c t) covered1

end Cert.KernelIdeal.Whole

end
-- ==== Proof.Region2Product.lean ====
/-
  Region 2: the product h · W₂ of the [100000, 128] hidden features with the [128, 40] weights, computed 5000 rows at a time.

  The grid has 20 points. Point t loads rows 5000·t … 5000·t + 4999 of the left matrix and the whole right matrix, and
  writes the matrix unit's product of the two (into a zero accumulator) back as the same rows of the output. Entry
  (p, q) of that block is ∑ₖ h(5000·t + p, k) · W(k, q), which is entry (5000·t + p, q) of the whole product: what a point
  writes back is its block of ONE array. The 20 blocks tile the 100000 rows — row r lies in block r / 5000 — so after the
  region the output array is the product of the two arrays the region found.
-/
import proofs.«180480_j15985868276092_1_alg».proof.Proof.Gen.KernelIdeal.Frame
import proofs.«180480_j15985868276092_1_alg».proof.Proof.LayerSpec
import Idealize.ShloMosaic.Lib.Pipeline.Value

set_option maxRecDepth 16384

noncomputable section

namespace Cert.KernelIdeal.Whole

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl

/-- The body's one stored value at entry (p, q): row r of the whole product, when the loaded left block's row p is the
    left matrix's row r and the loaded right block is the right matrix. -/
theorem block_entry2 (x : FVec Ideal ⟨2, ![100000, 128]⟩ .f32) (w : FVec Ideal ⟨2, ![128, 40]⟩ .f32)
    (x0 : Vec Ideal S5000x128 .f32) (x1 : Vec Ideal S128x40 .f32) (p : Fin 5000) (q : Fin 40) (r : Fin 100000)
    (hx : ∀ k : Fin 128, x0 (ix2 p k) = x (ix2 r k)) (hw : ∀ k : Fin 128, x1 (ix2 k q) = w (ix2 k q)) :
    k2_pay1 x0 x1 (ix2 p q) = Cert.Layer.matProd x w (ix2 r q) := by
  unfold k2_pay1
  exact Cert.Layer.matmul_block_apply (φ₁ := .bf16) (φ₂ := .bf16) dot_S5000x128_S128x40_S5000x40_1_0_0_1_n_n.wf none x w _ _ p q r
    (fun k => (congrFun (shapeCast_self x0 shapeCasts_S5000x128_S5000x128) (ix2 p k)).trans (hx k)) hw

/-- The printed index maps over the grid: the left and the output window move down one block of rows per point, the
    right window stays. -/
theorem index_maps2 : ∀ t : Fin cfg2.N, t.val < 20
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is its block of the product of the arrays the region found. -/
theorem flushed_prod2 (c : Dev nD) (t : Fin cfg2.N) :
    (dat2 V c).flushed 2 t
      = ((cfg2.win 2).blk t).view.read (Elt Ideal) (Cert.Layer.matProd (V c main_v44) (V c main_arg4)) := by
  show (cfg2.win 2).cut (grid2.coords t) ((dat2 V c).after 2 t) = _
  rw [after2_2]
  unfold out2_2
  rw [View.canon_unit_zero origin2]
  simp only [View.ld_unit_zero (S := S5000x128) origin2, View.ld_unit_zero (S := S128x40) origin2]
  obtain ⟨ht, a0, a1, b0, b1, o0, o1⟩ := index_maps2 t
  funext j
  obtain ⟨p, q, rfl⟩ : ∃ (p : Fin 5000) (q : Fin 40), j = ix2 p q := ⟨j 0, j 1, eq_ix2 j⟩
  have hp : p.val < 5000 := p.isLt
  have hr : t.val * 5000 + p.val < 100000 := by omega
  show k2_pay1 (iblk2 V c 0 t) (iblk2 V c 1 t) (ix2 p q)
    = Cert.Layer.matProd (V c main_v44) (V c main_arg4) (((cfg2.win 2).blk t).view.emb (ix2 p q))
  have hout : ((cfg2.win 2).blk t).view.emb (ix2 p q) = ix2 (⟨t.val * 5000 + p.val, hr⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 40 + 1 * q.val = q.val; omega
  rw [hout]
  refine block_entry2 (V c main_v44) (V c main_arg4) (iblk2 V c 0 t) (iblk2 V c 1 t) p q ⟨t.val * 5000 + p.val, hr⟩
    (fun k => ?_) (fun k => ?_)
  · show V c main_v44 (((cfg2.win 0).blk t).view.emb (ix2 p k)) = V c main_v44 (ix2 (⟨t.val * 5000 + p.val, hr⟩ : Fin 100000) k)
    refine congrArg (V c main_v44) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · show V c main_arg4 (((cfg2.win 1).blk t).view.emb (ix2 k q)) = V c main_arg4 (ix2 k q)
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 40 + 1 * q.val = q.val; omega

/-- An index of the output array is in point t's block iff each coordinate is in the block's range on its axis. -/
theorem mem_block2 (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v45).slice (win2_2.rect t)).set ↔ _
  rw [View.set_slice_whole, Rect.mem_set_unit]
  exact Iff.rfl

/-- Every index of the output array is in some point's block: row r is in block r / 5000. -/
theorem covered2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 20 := N_2
  refine ⟨⟨(i 0).val / 5000, by rw [hN]; omega⟩, flush2_2 _, ?_⟩
  rw [mem_block2]
  obtain ⟨ht, a0, a1, b0, b1, o0, o1⟩ := index_maps2 ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [o0]; show (i 0).val / 5000 * 5000 ≤ (i 0).val ∧ (i 0).val < (i 0).val / 5000 * 5000 + 5000; omega
  | ⟨1, _⟩ =>
    show win2_2.index _ (1 : Fin 2) * 40 ≤ (i 1).val ∧ (i 1).val < win2_2.index _ (1 : Fin 2) * 40 + 40
    rw [o1]; omega

/-- After the region its output array is the product of the two arrays it found. -/
theorem region2_array (c : Dev nD) :
    (dat2 V c).arrAt 2 cfg2.N = Cert.Layer.matProd (V c main_v44) (V c main_arg4) :=
  (dat2 V c).arrAt_eq_of_cover 2 _ (fun t _ => flushed_prod2 V c t) covered2

end Cert.KernelIdeal.Whole

end
-- ==== Proof.Region3Combine.lean ====
/-
  Region 3: one layer's combination, computed 5000 rows at a time.

  The grid has 20 points. Point t loads rows 5000·t … 5000·t + 4999 of the aggregate, of the product and of the
  inverse-degree column, and the whole bias row, and writes back, as the same rows of the output,
      agg(p, q) + prod(p, q) · invdeg(p, 0) + bias(0, q)
  — the column broadcast across the 40 columns and the row across the 5000 rows. Every operand is read at the output's own
  row, so what a point writes back is its block of ONE array, the combination of the whole arrays. The 20 blocks tile
  the 100000 rows — row r lies in block r / 5000 — so after the region the output array is that combination of the four
  arrays the region found.
-/
import proofs.«180480_j15985868276092_1_alg».proof.Proof.Gen.KernelIdeal.Frame
import proofs.«180480_j15985868276092_1_alg».proof.Proof.LayerSpec
import Idealize.ShloMosaic.Lib.Pipeline.Value
import Idealize.ShloMosaic.Lib.ValueLayout

set_option maxRecDepth 16384

noncomputable section

namespace Cert.KernelIdeal.Whole

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin3 : (![0, 0] : Fin 2 → Nat) = fun _ => 0 := funext fun a => by fin_cases a <;> rfl

/-- The body's one stored value at entry (p, q), from the four loaded blocks. -/
theorem block_entry3 (v0 v2 : Vec Ideal S5000x40 .f32) (v4 : Vec Ideal S5000x1 .f32) (v6 : Vec Ideal S1x40 .f32)
    (p : Fin 5000) (q : Fin 40) :
    k3_pay1 v0 v2 v4 v6 (ix2 p q)
      = v0 (ix2 p q) + v2 (ix2 p q) * v4 (ix2 p (0 : Fin 1)) + v6 (ix2 (0 : Fin 1) q) := by
  unfold k3_pay1
  rw [shapeCast_self v0, shapeCast_self v2, shapeCast_self v4, shapeCast_self v6]
  show v0 (ix2 p q) + v2 (ix2 p q) * broadcastTo S5000x40 v4 broadcasts_S5000x1_S5000x40 (ix2 p q)
      + broadcastTo S5000x40 v6 broadcasts_S1x40_S5000x40 (ix2 p q) = _
  rw [Cert.LibColumnBroadcast.broadcastTo_a1_ab_apply, broadcastTo_1b_ab_apply]

/-- The same against the whole arrays: when the four loaded blocks, at the coordinates the entry reads, are the arrays at
    row r, the stored value at (p, q) is the combination of the arrays at (r, q). -/
theorem block_entry_arrays3 (A P : FVec Ideal ⟨2, ![100000, 40]⟩ .f32) (I : FVec Ideal ⟨2, ![100000, 1]⟩ .f32)
    (Bi : FVec Ideal ⟨2, ![1, 40]⟩ .f32)
    (v0 v2 : Vec Ideal S5000x40 .f32) (v4 : Vec Ideal S5000x1 .f32) (v6 : Vec Ideal S1x40 .f32)
    (p : Fin 5000) (q : Fin 40) (r : Fin 100000)
    (h0 : v0 (ix2 p q) = A (ix2 r q)) (h1 : v2 (ix2 p q) = P (ix2 r q))
    (h2 : v4 (ix2 p (0 : Fin 1)) = I (ix2 r (0 : Fin 1))) (h3 : v6 (ix2 (0 : Fin 1) q) = Bi (ix2 (0 : Fin 1) q)) :
    k3_pay1 v0 v2 v4 v6 (ix2 p q) = Cert.Layer.combine A P I Bi (ix2 r q) := by
  rw [block_entry3, h0, h1, h2, h3]
  rfl

/-- The printed index maps over the grid: the aggregate's, the product's, the column's and the output's windows move down
    one block of rows per point, the bias row's stays. -/
theorem index_maps3 : ∀ t : Fin cfg3.N, t.val < 20
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is its block of the combination of the arrays the region found. -/
theorem flushed_combine3 (c : Dev nD) (t : Fin cfg3.N) :
    (dat3 V c).flushed 4 t
      = ((cfg3.win 4).blk t).view.read (Elt Ideal)
          (Cert.Layer.combine (V c main_v58) (V c main_v45) (V c main_v59) (V c main_v60)) := by
  show (cfg3.win 4).cut (grid3.coords t) ((dat3 V c).after 4 t) = _
  rw [after3_4]
  unfold out3_4
  rw [View.canon_unit_zero origin3]
  simp only [View.ld_unit_zero (S := S5000x40) origin3, View.ld_unit_zero (S := S5000x1) origin3, View.ld_unit_zero (S := S1x40) origin3]
  obtain ⟨ht, a0, a1, b0, b1, d0, d1, e0, e1, o0, o1⟩ := index_maps3 t
  funext j
  obtain ⟨p, q, rfl⟩ : ∃ (p : Fin 5000) (q : Fin 40), j = ix2 p q := ⟨j 0, j 1, eq_ix2 j⟩
  have hp : p.val < 5000 := p.isLt
  have hr : t.val * 5000 + p.val < 100000 := by omega
  show k3_pay1 (iblk3 V c 0 t) (iblk3 V c 1 t) (iblk3 V c 2 t) (iblk3 V c 3 t) (ix2 p q)
    = Cert.Layer.combine (V c main_v58) (V c main_v45) (V c main_v59) (V c main_v60) (((cfg3.win 4).blk t).view.emb (ix2 p q))
  have hout : ((cfg3.win 4).blk t).view.emb (ix2 p q) = ix2 (⟨t.val * 5000 + p.val, hr⟩ : Fin 100000) q := by
    funext a; apply Fin.ext
    match a with
    | ⟨0, _⟩ => show win3_4.index t (0 : Fin 2) * 5000 + 1 * p.val = t.val * 5000 + p.val; omega
    | ⟨1, _⟩ => show win3_4.index t (1 : Fin 2) * 40 + 1 * q.val = q.val; omega
  rw [hout]
  refine block_entry_arrays3 (V c main_v58) (V c main_v45) (V c main_v59) (V c main_v60)
    (iblk3 V c 0 t) (iblk3 V c 1 t) (iblk3 V c 2 t) (iblk3 V c 3 t) p q ⟨t.val * 5000 + p.val, hr⟩ ?_ ?_ ?_ ?_
  · show V c main_v58 (((cfg3.win 0).blk t).view.emb (ix2 p q)) = V c main_v58 (ix2 (⟨t.val * 5000 + p.val, hr⟩ : Fin 100000) q)
    refine congrArg (V c main_v58) (funext fun a => Fin.ext ?_)
    match a with
    | ⟨0, _⟩ => show win3_0.index t (0 : Fin 2) * 5000 + 1 * p.val = t.val * 5000 + p.val; omega
    | ⟨1, _⟩ => show win3_0.index t (1 : Fin 2) * 40 + 1 * q.val = q.val; omega
  · show V c main_v45 (((cfg3.win 1).blk t).view.emb (ix2 p q)) = V c main_v45 (ix2 (⟨t.val * 5000 + p.val, hr⟩ : Fin 100000) q)
    refine congrArg (V c main_v45) (funext fun a => Fin.ext ?_)
    match a with
    | ⟨0, _⟩ => show win3_1.index t (0 : Fin 2) * 5000 + 1 * p.val = t.val * 5000 + p.val; omega
    | ⟨1, _⟩ => show win3_1.index t (1 : Fin 2) * 40 + 1 * q.val = q.val; omega
  · show V c main_v59 (((cfg3.win 2).blk t).view.emb (ix2 p (0 : Fin 1))) = V c main_v59 (ix2 (⟨t.val * 5000 + p.val, hr⟩ : Fin 100000) (0 : Fin 1))
    refine congrArg (V c main_v59) (funext fun a => Fin.ext ?_)
    match a with
    | ⟨0, _⟩ => show win3_2.index t (0 : Fin 2) * 5000 + 1 * p.val = t.val * 5000 + p.val; omega
    | ⟨1, _⟩ => show win3_2.index t (1 : Fin 2) * 1 + 1 * 0 = 0; omega
  · show V c main_v60 (((cfg3.win 3).blk t).view.emb (ix2 (0 : Fin 1) q)) = V c main_v60 (ix2 (0 : Fin 1) q)
    refine congrArg (V c main_v60) (funext fun a => Fin.ext ?_)
    match a with
    | ⟨0, _⟩ => show win3_3.index t (0 : Fin 2) * 1 + 1 * 0 = 0; omega
    | ⟨1, _⟩ => show win3_3.index t (1 : Fin 2) * 40 + 1 * q.val = q.val; omega

/-- An index of the output array is in point t's block iff each coordinate is in the block's range on its axis. -/
theorem mem_block3 (t : Fin cfg3.N) (i : S100000x40.Idx) :
    i ∈ ((cfg3.win 4).blk t).view.set ↔ ∀ a : Fin 2, win3_4.index t a * S5000x40.size a ≤ (i a).val ∧ (i a).val < win3_4.index t a * S5000x40.size a + S5000x40.size a := by
  show i ∈ ((View.whole main_v61).slice (win3_4.rect t)).set ↔ _
  rw [View.set_slice_whole, Rect.mem_set_unit]
  exact Iff.rfl

/-- Every index of the output array is in some point's block: row r is in block r / 5000. -/
theorem covered3 (i : S100000x40.Idx) :
    ∃ t : Fin cfg3.N, (cfg3.win 4).flush t = true ∧ i ∈ ((cfg3.win 4).blk t).view.set := by
  have hi0 : (i 0).val < 100000 := (i 0).isLt
  have hi1 : (i 1).val < 40 := (i 1).isLt
  have hN : cfg3.N = 20 := N_3
  refine ⟨⟨(i 0).val / 5000, by rw [hN]; omega⟩, flush3_4 _, ?_⟩
  rw [mem_block3]
  obtain ⟨ht, a0, a1, b0, b1, d0, d1, e0, e1, o0, o1⟩ := index_maps3 ⟨(i 0).val / 5000, by rw [hN]; omega⟩
  intro a
  match a with
  | ⟨0, _⟩ =>
    show win3_4.index _ (0 : Fin 2) * 5000 ≤ (i 0).val ∧ (i 0).val < win3_4.index _ (0 : Fin 2) * 5000 + 5000
    rw [o0]; show (i 0).val / 5000 * 5000 ≤ (i 0).val ∧ (i 0).val < (i 0).val / 5000 * 5000 + 5000; omega
  | ⟨1, _⟩ =>
    show win3_4.index _ (1 : Fin 2) * 40 ≤ (i 1).val ∧ (i 1).val < win3_4.index _ (1 : Fin 2) * 40 + 40
    rw [o1]; omega

/-- After the region its output array is the combination of the four arrays it found. -/
theorem region3_array (c : Dev nD) :
    (dat3 V c).arrAt 4 cfg3.N
      = Cert.Layer.combine (V c main_v58) (V c main_v45) (V c main_v59) (V c main_v60) :=
  (dat3 V c).arrAt_eq_of_cover 4 _ (fun t _ => flushed_combine3 V c t) covered3

end Cert.KernelIdeal.Whole

end
-- ==== Proof.GraphTerms.lean ====
/-
  The graph side of a layer, as functions of the [2, E] edge array alone.

  Row 0 of the edge array holds each edge's source node and row 1 its destination. From them:
    * the degree of a node is the number of edges that end at it, plus one for the node's own loop — a scatter-add of
      ones at the destinations into zeros, then + 1;
    * an edge's weight is deg(src)^(-1/2) · deg(dst)^(-1/2), each factor gathered at the index wrapped once when
      negative (index + 100000 where index < 0);
    * the inverse degree is 1 / deg;
    * the aggregate of node features H sends, along every edge, the source node's row of H times the edge's weight to
      the destination node, summing what arrives: a row gather at the wrapped sources, a product with the weight
      broadcast across the row, and a row scatter-add at the destinations into zeros.
  The gather and the scatter-add are kept as the operations they are; nothing here opens them.
-/
import proofs.«180480_j15985868276092_1_alg».proof.ReferenceIdeal
import proofs.«180480_j15985868276092_1_alg».proof.Proof.Gen.ReferenceIdeal
import Idealize.ShloMosaic.PureOps.Ideal

noncomputable section

namespace Cert.Graph

open Idealize.ShloMosaic Cert.ReferenceIdeal Cert.ReferenceIdeal.Facts₀

abbrev Edges : Type := (⟨S2x1600000, .i32⟩ : BufTy).Contents (Elt Ideal)
abbrev EdgeIdx : Type := (⟨S1600000, .i32⟩ : BufTy).Contents (Elt Ideal)

variable (E : Edges)

/-- Each edge's source node: row 0 of the edge array. -/
def src : EdgeIdx :=
  shapeCast S1600000 (extractStridedSlice S1x1600000 ![0, 0] E slices_S2x1600000_S1x1600000_0_0) shapeCasts_S1x1600000_S1600000

/-- Each edge's destination node: row 1 of the edge array. -/
def dst : EdgeIdx :=
  shapeCast S1600000 (extractStridedSlice S1x1600000 ![1, 0] E slices_S2x1600000_S1x1600000_1_0) shapeCasts_S1x1600000_S1600000

/-- A node index wrapped once when negative, as the one-column array of start indices a gather takes. -/
def wrapped (v : EdgeIdx) : (⟨S1600000x1, .i32⟩ : BufTy).Contents (Elt Ideal) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- A node's degree: the edges ending at it, plus one. -/
def deg : FVec Ideal S100000 .f32 :=
  addf (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (dst E))
        (broadcastInDim S1600000 ![] bcast_S_S1600000 (constant (F := Ideal) S_ .f32 0x3F800000#32)))
    (broadcastInDim S100000 ![] bcast_S_S100000 (constant (F := Ideal) S_ .f32 0x3F800000#32))

/-- An edge's weight: deg(src)^(-1/2) · deg(dst)^(-1/2). -/
def weight : FVec Ideal S1600000 .f32 :=
  mulf (Host.gather gather_S100000_S1600000x1_S1600000_n_0_n_n_0_1_1 (Host.rsqrt (deg E)) (wrapped (src E)))
    (Host.gather gather_S100000_S1600000x1_S1600000_n_0_n_n_0_1_1 (Host.rsqrt (deg E)) (wrapped (dst E)))

/-- The inverse degree 1 / deg. -/
def invdeg : FVec Ideal S100000 .f32 :=
  Host.divf (broadcastInDim S100000 ![] bcast_S_S100000 (constant (F := Ideal) S_ .f32 0x3F800000#32)) (deg E)

/-- The neighbour aggregate of 128-column node features. -/
def agg128 (H : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dst E))
    (mulf (Host.gather gather_S100000x128_S1600000x1_S1600000x128_1_0_n_n_0_1_1128 H (wrapped (src E)))
      (broadcastInDim S1600000x128 ![0, 1] bcast_S1600000x1_S1600000x128_0_1
        (broadcastInDim S1600000x1 ![0] bcast_S1600000_S1600000x1_0 (weight E))))

/-- The neighbour aggregate of 40-column node features. -/
def agg40 (H : FVec Ideal S100000x40 .f32) : FVec Ideal S100000x40 .f32 :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 (dst E))
    (mulf (Host.gather gather_S100000x40_S1600000x1_S1600000x40_1_0_n_n_0_1_140 H (wrapped (src E)))
      (broadcastInDim S1600000x40 ![0, 1] bcast_S1600000x1_S1600000x40_0_1
        (broadcastInDim S1600000x1 ![0] bcast_S1600000_S1600000x1_0 (weight E))))

end Cert.Graph

end
-- ==== Proof.HostStretches.lean ====
/-
  The host stretches of the kernel program, read.

  Before the first region the host computes, from the edge array alone, each edge's source and destination, the degrees,
  the edge weights and the inverse degrees. No later operation and no region writes those buffers, nor the weight and
  bias arguments, so at every later boundary they still hold what the first stretch left. Before the second region the
  host aggregates the first product over the edges and reshapes the inverse degree to a column and the first bias to a
  row; before the fourth it does the same with the second product and the second bias. Each buffer a region reads is
  written here as a function of the launch arrays and of the one array the previous region produced.
-/
import proofs.«180480_j15985868276092_1_alg».proof.Proof.Gen.KernelIdeal.Frame
import proofs.«180480_j15985868276092_1_alg».proof.Proof.GraphTerms
import Idealize.ShloMosaic.Lib.StableHlo.Run

set_option maxRecDepth 16384

noncomputable section

namespace Cert.KernelIdeal.Whole

open Idealize.ShloMosaic Idealize.ShloMosaic.TcCoe Idealize.ShloMosaic.StableHlo
open Idealize.SL.Sem
open Cert.KernelIdeal Cert.KernelIdeal.Gen

variable (m : (ℓ : Loc nD τ sig) → Buf (Elt Ideal) ℓ) (ρ : Dev nD → PrngReg) (c : Dev nD)

/-! ## After the first stretch -/

/-- The first stretch leaves the features as launched. -/
theorem first_main_arg0 : W1 m ρ c (Proc.devRef .tc main_arg0) = m ((c : Thread nD τ).loc main_arg0) := by
  show StableHlo.after hostOps0 (W0 m ρ c) (Proc.devRef .tc main_arg0) = _
  after_results_simp <;> rfl

/-- The first stretch leaves the first weight matrix as launched. -/
theorem first_main_arg2 : W1 m ρ c (Proc.devRef .tc main_arg2) = m ((c : Thread nD τ).loc main_arg2) := by
  show StableHlo.after hostOps0 (W0 m ρ c) (Proc.devRef .tc main_arg2) = _
  after_results_simp <;> rfl

/-- After the first stretch: the edges' sources. -/
theorem first_main_v1 : W1 m ρ c (Proc.devRef .tc main_v1) = Cert.Graph.src (m ((c : Thread nD τ).loc main_arg1)) := by
  show StableHlo.after hostOps0 (W0 m ρ c) (Proc.devRef .tc main_v1) = _
  after_results_simp <;> rfl

/-- After the first stretch: the edges' destinations. -/
theorem first_main_v3 : W1 m ρ c (Proc.devRef .tc main_v3) = Cert.Graph.dst (m ((c : Thread nD τ).loc main_arg1)) := by
  show StableHlo.after hostOps0 (W0 m ρ c) (Proc.devRef .tc main_v3) = _
  after_results_simp <;> rfl

/-- After the first stretch: the edges' weights. -/
theorem first_main_v25 : W1 m ρ c (Proc.devRef .tc main_v25) = Cert.Graph.weight (m ((c : Thread nD τ).loc main_arg1)) := by
  show StableHlo.after hostOps0 (W0 m ρ c) (Proc.devRef .tc main_v25) = _
  after_results_simp <;> rfl

/-- After the first stretch: the inverse degrees. -/
theorem first_main_v27 : W1 m ρ c (Proc.devRef .tc main_v27) = Cert.Graph.invdeg (m ((c : Thread nD τ).loc main_arg1)) := by
  show StableHlo.after hostOps0 (W0 m ρ c) (Proc.devRef .tc main_v27) = _
  after_results_simp <;> rfl

/-- After the first stretch: the first bias. -/
theorem first_main_arg3 : W1 m ρ c (Proc.devRef .tc main_arg3) = m ((c : Thread nD τ).loc main_arg3) := by
  show StableHlo.after hostOps0 (W0 m ρ c) (Proc.devRef .tc main_arg3) = _
  after_results_simp <;> rfl

/-- After the first stretch: the second weight matrix. -/
theorem first_main_arg4 : W1 m ρ c (Proc.devRef .tc main_arg4) = m ((c : Thread nD τ).loc main_arg4) := by
  show StableHlo.after hostOps0 (W0 m ρ c) (Proc.devRef .tc main_arg4) = _
  after_results_simp <;> rfl

/-- After the first stretch: the second bias. -/
theorem first_main_arg5 : W1 m ρ c (Proc.devRef .tc main_arg5) = m ((c : Thread nD τ).loc main_arg5) := by
  show StableHlo.after hostOps0 (W0 m ρ c) (Proc.devRef .tc main_arg5) = _
  after_results_simp <;> rfl

/-! ## Carried past the first region, the second stretch, and the second and third regions -/

theorem at2_main_v1 : W2 m ρ c (Proc.devRef .tc main_v1) = Cert.Graph.src (m ((c : Thread nD τ).loc main_arg1)) :=
  (W2_of_ne m ρ c main_v1 (by decide)).trans (first_main_v1 m ρ c)
theorem at3_main_v1 : W3 m ρ c (Proc.devRef .tc main_v1) = Cert.Graph.src (m ((c : Thread nD τ).loc main_arg1)) := by
  refine Eq.trans ?_ (at2_main_v1 m ρ c)
  show StableHlo.after hostOps1 (W2 m ρ c) (Proc.devRef .tc main_v1) = _
  after_results_simp <;> rfl
theorem at4_main_v1 : W4 m ρ c (Proc.devRef .tc main_v1) = Cert.Graph.src (m ((c : Thread nD τ).loc main_arg1)) :=
  (W4_of_ne m ρ c main_v1 (by decide)).trans (at3_main_v1 m ρ c)
theorem at5_main_v1 : W5 m ρ c (Proc.devRef .tc main_v1) = Cert.Graph.src (m ((c : Thread nD τ).loc main_arg1)) :=
  (W5_of_ne m ρ c main_v1 (by decide)).trans (at4_main_v1 m ρ c)

theorem at2_main_v3 : W2 m ρ c (Proc.devRef .tc main_v3) = Cert.Graph.dst (m ((c : Thread nD τ).loc main_arg1)) :=
  (W2_of_ne m ρ c main_v3 (by decide)).trans (first_main_v3 m ρ c)
theorem at3_main_v3 : W3 m ρ c (Proc.devRef .tc main_v3) = Cert.Graph.dst (m ((c : Thread nD τ).loc main_arg1)) := by
  refine Eq.trans ?_ (at2_main_v3 m ρ c)
  show StableHlo.after hostOps1 (W2 m ρ c) (Proc.devRef .tc main_v3) = _
  after_results_simp <;> rfl
theorem at4_main_v3 : W4 m ρ c (Proc.devRef .tc main_v3) = Cert.Graph.dst (m ((c : Thread nD τ).loc main_arg1)) :=
  (W4_of_ne m ρ c main_v3 (by decide)).trans (at3_main_v3 m ρ c)
theorem at5_main_v3 : W5 m ρ c (Proc.devRef .tc main_v3) = Cert.Graph.dst (m ((c : Thread nD τ).loc main_arg1)) :=
  (W5_of_ne m ρ c main_v3 (by decide)).trans (at4_main_v3 m ρ c)

theorem at2_main_v25 : W2 m ρ c (Proc.devRef .tc main_v25) = Cert.Graph.weight (m ((c : Thread nD τ).loc main_arg1)) :=
  (W2_of_ne m ρ c main_v25 (by decide)).trans (first_main_v25 m ρ c)
theorem at3_main_v25 : W3 m ρ c (Proc.devRef .tc main_v25) = Cert.Graph.weight (m ((c : Thread nD τ).loc main_arg1)) := by
  refine Eq.trans ?_ (at2_main_v25 m ρ c)
  show StableHlo.after hostOps1 (W2 m ρ c) (Proc.devRef .tc main_v25) = _
  after_results_simp <;> rfl
theorem at4_main_v25 : W4 m ρ c (Proc.devRef .tc main_v25) = Cert.Graph.weight (m ((c : Thread nD τ).loc main_arg1)) :=
  (W4_of_ne m ρ c main_v25 (by decide)).trans (at3_main_v25 m ρ c)
theorem at5_main_v25 : W5 m ρ c (Proc.devRef .tc main_v25) = Cert.Graph.weight (m ((c : Thread nD τ).loc main_arg1)) :=
  (W5_of_ne m ρ c main_v25 (by decide)).trans (at4_main_v25 m ρ c)

theorem at2_main_v27 : W2 m ρ c (Proc.devRef .tc main_v27) = Cert.Graph.invdeg (m ((c : Thread nD τ).loc main_arg1)) :=
  (W2_of_ne m ρ c main_v27 (by decide)).trans (first_main_v27 m ρ c)
theorem at3_main_v27 : W3 m ρ c (Proc.devRef .tc main_v27) = Cert.Graph.invdeg (m ((c : Thread nD τ).loc main_arg1)) := by
  refine Eq.trans ?_ (at2_main_v27 m ρ c)
  show StableHlo.after hostOps1 (W2 m ρ c) (Proc.devRef .tc main_v27) = _
  after_results_simp <;> rfl
theorem at4_main_v27 : W4 m ρ c (Proc.devRef .tc main_v27) = Cert.Graph.invdeg (m ((c : Thread nD τ).loc main_arg1)) :=
  (W4_of_ne m ρ c main_v27 (by decide)).trans (at3_main_v27 m ρ c)
theorem at5_main_v27 : W5 m ρ c (Proc.devRef .tc main_v27) = Cert.Graph.invdeg (m ((c : Thread nD τ).loc main_arg1)) :=
  (W5_of_ne m ρ c main_v27 (by decide)).trans (at4_main_v27 m ρ c)

theorem at2_main_arg3 : W2 m ρ c (Proc.devRef .tc main_arg3) = m ((c : Thread nD τ).loc main_arg3) :=
  (W2_of_ne m ρ c main_arg3 (by decide)).trans (first_main_arg3 m ρ c)

theorem at2_main_arg4 : W2 m ρ c (Proc.devRef .tc main_arg4) = m ((c : Thread nD τ).loc main_arg4) :=
  (W2_of_ne m ρ c main_arg4 (by decide)).trans (first_main_arg4 m ρ c)
theorem at3_main_arg4 : W3 m ρ c (Proc.devRef .tc main_arg4) = m ((c : Thread nD τ).loc main_arg4) := by
  refine Eq.trans ?_ (at2_main_arg4 m ρ c)
  show StableHlo.after hostOps1 (W2 m ρ c) (Proc.devRef .tc main_arg4) = _
  after_results_simp <;> rfl
theorem at4_main_arg4 : W4 m ρ c (Proc.devRef .tc main_arg4) = m ((c : Thread nD τ).loc main_arg4) :=
  (W4_of_ne m ρ c main_arg4 (by decide)).trans (at3_main_arg4 m ρ c)

theorem at2_main_arg5 : W2 m ρ c (Proc.devRef .tc main_arg5) = m ((c : Thread nD τ).loc main_arg5) :=
  (W2_of_ne m ρ c main_arg5 (by decide)).trans (first_main_arg5 m ρ c)
theorem at3_main_arg5 : W3 m ρ c (Proc.devRef .tc main_arg5) = m ((c : Thread nD τ).loc main_arg5) := by
  refine Eq.trans ?_ (at2_main_arg5 m ρ c)
  show StableHlo.after hostOps1 (W2 m ρ c) (Proc.devRef .tc main_arg5) = _
  after_results_simp <;> rfl
theorem at4_main_arg5 : W4 m ρ c (Proc.devRef .tc main_arg5) = m ((c : Thread nD τ).loc main_arg5) :=
  (W4_of_ne m ρ c main_arg5 (by decide)).trans (at3_main_arg5 m ρ c)
theorem at5_main_arg5 : W5 m ρ c (Proc.devRef .tc main_arg5) = m ((c : Thread nD τ).loc main_arg5) :=
  (W5_of_ne m ρ c main_arg5 (by decide)).trans (at4_main_arg5 m ρ c)

/-! ## What the second region finds -/

/-- The aggregate of the first product over the edges. -/
theorem second_agg : V3 m ρ c main_v41 = Cert.Graph.agg128 (m ((c : Thread nD τ).loc main_arg1)) (W2 m ρ c (Proc.devRef .tc main_v28)) := by
  show StableHlo.after hostOps1 (W2 m ρ c) (Proc.devRef .tc main_v41) = _
  after_results_simp
  rw [at2_main_v3, at2_main_v1, at2_main_v25]
  rfl

/-- The first product itself, untouched by the stretch. -/
theorem second_prod : V3 m ρ c main_v28 = W2 m ρ c (Proc.devRef .tc main_v28) := by
  show StableHlo.after hostOps1 (W2 m ρ c) (Proc.devRef .tc main_v28) = _
  after_results_simp <;> rfl

/-- The inverse degrees as a column. -/
theorem second_invdeg : V3 m ρ c main_v42 = shapeCast S100000x1 (Cert.Graph.invdeg (m ((c : Thread nD τ).loc main_arg1))) Facts₀.shapeCasts_S100000_S100000x1 := by
  show StableHlo.after hostOps1 (W2 m ρ c) (Proc.devRef .tc main_v42) = _
  after_results_simp
  rw [at2_main_v27]
  rfl

/-- The first bias as a row. -/
theorem second_bias : V3 m ρ c main_v43 = shapeCast S1x128 (m ((c : Thread nD τ).loc main_arg3)) Facts₀.shapeCasts_S128_S1x128 := by
  show StableHlo.after hostOps1 (W2 m ρ c) (Proc.devRef .tc main_v43) = _
  after_results_simp
  rw [at2_main_arg3]
  rfl

/-! ## What the fourth region finds -/

/-- The aggregate of the second product over the edges. -/
theorem fourth_agg : V6 m ρ c main_v58 = Cert.Graph.agg40 (m ((c : Thread nD τ).loc main_arg1)) (W5 m ρ c (Proc.devRef .tc main_v45)) := by
  show StableHlo.after hostOps3 (W5 m ρ c) (Proc.devRef .tc main_v58) = _
  after_results_simp
  rw [at5_main_v3, at5_main_v1, at5_main_v25]
  rfl

/-- The second product itself, untouched by the stretch. -/
theorem fourth_prod : V6 m ρ c main_v45 = W5 m ρ c (Proc.devRef .tc main_v45) := by
  show StableHlo.after hostOps3 (W5 m ρ c) (Proc.devRef .tc main_v45) = _
  after_results_simp <;> rfl

/-- The inverse degrees as a column. -/
theorem fourth_invdeg : V6 m ρ c main_v59 = shapeCast S100000x1 (Cert.Graph.invdeg (m ((c : Thread nD τ).loc main_arg1))) Facts₀.shapeCasts_S100000_S100000x1 := by
  show StableHlo.after hostOps3 (W5 m ρ c) (Proc.devRef .tc main_v59) = _
  after_results_simp
  rw [at5_main_v27]
  rfl

/-- The second bias as a row. -/
theorem fourth_bias : V6 m ρ c main_v60 = shapeCast S1x40 (m ((c : Thread nD τ).loc main_arg5)) Facts₀.shapeCasts_S40_S1x40 := by
  show StableHlo.after hostOps3 (W5 m ρ c) (Proc.devRef .tc main_v60) = _
  after_results_simp
  rw [at5_main_arg5]
  rfl

end Cert.KernelIdeal.Whole

end
-- ==== Proof.LayerBroadcast.lean ====
/-
  The reference's spelling of a layer's combination, as one definition generic in the sizes.

  The rank-1 inverse degree is broadcast to an [M, 1] column and then across the N columns, the rank-1 bias to a [1, N]
  row and then across the M rows, and the four arrays are combined elementwise; the first layer then takes the maximum
  with a splat of zero. Read at an entry each broadcast is its operand at the coordinates it keeps, so this is the
  combination with the column and the row the reshapes of the two vectors, and the maximum with the splat is the
  larger of the entry and zero.
-/
import proofs.«180480_j15985868276092_1_alg».proof.Proof.LayerSpec

noncomputable section

namespace Cert.Layer

open Idealize.ShloMosaic Idealize.ShloMosaic.ValueIdx

variable {M N : Nat}
variable (hi1 : (⟨1, ![M]⟩ : Shape).BroadcastsInDim ⟨2, ![M, 1]⟩ ![0])
  (hi2 : (⟨2, ![M, 1]⟩ : Shape).BroadcastsInDim ⟨2, ![M, N]⟩ ![0, 1])
  (hb1 : (⟨1, ![N]⟩ : Shape).BroadcastsInDim ⟨2, ![1, N]⟩ ![1])
  (hb2 : (⟨2, ![1, N]⟩ : Shape).BroadcastsInDim ⟨2, ![M, N]⟩ ![0, 1])
  (hz : (⟨0, ![]⟩ : Shape).BroadcastsInDim ⟨2, ![M, N]⟩ ![])

/-- The combination with the inverse degree and the bias broadcast in two steps each. -/
def bcastCombine (agg p : FVec Ideal ⟨2, ![M, N]⟩ .f32) (invdeg : FVec Ideal ⟨1, ![M]⟩ .f32) (b : FVec Ideal ⟨1, ![N]⟩ .f32) :
    FVec Ideal ⟨2, ![M, N]⟩ .f32 :=
  addf (addf agg (mulf p (broadcastInDim ⟨2, ![M, N]⟩ ![0, 1] hi2 (broadcastInDim ⟨2, ![M, 1]⟩ ![0] hi1 invdeg))))
    (broadcastInDim ⟨2, ![M, N]⟩ ![0, 1] hb2 (broadcastInDim ⟨2, ![1, N]⟩ ![1] hb1 b))

/-- The same under a maximum with a splat of zero. -/
def bcastCombineRelu (agg p : FVec Ideal ⟨2, ![M, N]⟩ .f32) (invdeg : FVec Ideal ⟨1, ![M]⟩ .f32) (b : FVec Ideal ⟨1, ![N]⟩ .f32) :
    FVec Ideal ⟨2, ![M, N]⟩ .f32 :=
  maximumf (bcastCombine hi1 hi2 hb1 hb2 agg p invdeg b)
    (broadcastInDim ⟨2, ![M, N]⟩ ![] hz (constant (F := Ideal) ⟨0, ![]⟩ .f32 0x00000000#32))

theorem bcastCombine_eq (agg p : FVec Ideal ⟨2, ![M, N]⟩ .f32) (invdeg : FVec Ideal ⟨1, ![M]⟩ .f32) (b : FVec Ideal ⟨1, ![N]⟩ .f32)
    (ci : (⟨1, ![M]⟩ : Shape).ShapeCasts ⟨2, ![M, 1]⟩) (cb : (⟨1, ![N]⟩ : Shape).ShapeCasts ⟨2, ![1, N]⟩) :
    bcastCombine hi1 hi2 hb1 hb2 agg p invdeg b
      = combine agg p (shapeCast ⟨2, ![M, 1]⟩ invdeg ci) (shapeCast ⟨2, ![1, N]⟩ b cb) :=
  bcast_combine_eq agg p invdeg b hi1 hi2 hb1 hb2 ci cb

theorem bcastCombineRelu_eq (agg p : FVec Ideal ⟨2, ![M, N]⟩ .f32) (invdeg : FVec Ideal ⟨1, ![M]⟩ .f32) (b : FVec Ideal ⟨1, ![N]⟩ .f32)
    (ci : (⟨1, ![M]⟩ : Shape).ShapeCasts ⟨2, ![M, 1]⟩) (cb : (⟨1, ![N]⟩ : Shape).ShapeCasts ⟨2, ![1, N]⟩) :
    bcastCombineRelu hi1 hi2 hb1 hb2 hz agg p invdeg b
      = combineRelu agg p (shapeCast ⟨2, ![M, 1]⟩ invdeg ci) (shapeCast ⟨2, ![1, N]⟩ b cb) := by
  unfold bcastCombineRelu
  rw [bcastCombine_eq hi1 hi2 hb1 hb2 agg p invdeg b ci cb]
  funext j
  show max (combine agg p (shapeCast ⟨2, ![M, 1]⟩ invdeg ci) (shapeCast ⟨2, ![1, N]⟩ b cb) j)
      (broadcastInDim ⟨2, ![M, N]⟩ ![] hz (constant (F := Ideal) ⟨0, ![]⟩ .f32 0x00000000#32) j)
    = max (combine agg p (shapeCast ⟨2, ![M, 1]⟩ invdeg ci) (shapeCast ⟨2, ![1, N]⟩ b cb) j) (Ideal.ofBits .f32 0x00000000#32)
  rw [broadcastInDim_apply ![] hz (constant (F := Ideal) ⟨0, ![]⟩ .f32 0x00000000#32) j ix0 (fun a => a.elim0)]
  rfl

end Cert.Layer

end
-- ==== Proof.Network.lean ====
/-
  The two-layer network as ONE function of the six argument arrays, and the reference's spelling of it.

  network(x, e, W₁, b₁, W₂, b₂) is, with the graph side (aggregate, inverse degree) a function of the edge array e alone:
      p₁ = x · W₁
      h  = max(agg(p₁) + p₁ · invdeg + b₁, 0)          entry by entry, invdeg per row and b₁ per column
      p₂ = h · W₂
      out = agg(p₂) + p₂ · invdeg + b₂
  The reference computes exactly this: each product is one host dot_general of whole matrices, which is the textbook
  sum; each combination broadcasts the rank-1 inverse degree and bias in two steps, which read at an entry are the
  column and the row; the rectifier is a maximum with a zero splat. It computes the degrees once per layer, the same
  term twice.
-/
import proofs.«180480_j15985868276092_1_alg».proof.Proof.GraphTerms
import proofs.«180480_j15985868276092_1_alg».proof.Proof.LayerSpec
import proofs.«180480_j15985868276092_1_alg».proof.Proof.LayerBroadcast

set_option maxRecDepth 16384

noncomputable section

namespace Cert.Net

open Idealize.ShloMosaic Idealize.ShloMosaic.ValueIdx Idealize.ShloMosaic.TcCoe Idealize.SL.Sem
open Cert.ReferenceIdeal Cert.ReferenceIdeal.Facts₀

variable (ci : S100000.ShapeCasts S100000x1) (cb1 : S128.ShapeCasts S1x128) (cb2 : S40.ShapeCasts S1x40)
variable (E : Cert.Graph.Edges)

/-! ## The specification -/

/-- The hidden features after the first layer. -/
def hidden (X : FVec Ideal S100000x256 .f32) (W1 : FVec Ideal S256x128 .f32) (B1 : FVec Ideal S128 .f32) : FVec Ideal S100000x128 .f32 :=
  Cert.Layer.combineRelu (Cert.Graph.agg128 E (Cert.Layer.matProd X W1)) (Cert.Layer.matProd X W1)
    (shapeCast S100000x1 (Cert.Graph.invdeg E) ci) (shapeCast S1x128 B1 cb1)

/-- The network's output. -/
def network (X : FVec Ideal S100000x256 .f32) (W1 : FVec Ideal S256x128 .f32) (B1 : FVec Ideal S128 .f32)
    (W2 : FVec Ideal S128x40 .f32) (B2 : FVec Ideal S40 .f32) : FVec Ideal S100000x40 .f32 :=
  Cert.Layer.combine (Cert.Graph.agg40 E (Cert.Layer.matProd (hidden ci cb1 E X W1 B1) W2)) (Cert.Layer.matProd (hidden ci cb1 E X W1 B1) W2)
    (shapeCast S100000x1 (Cert.Graph.invdeg E) ci) (shapeCast S1x40 B2 cb2)

/-! ## The reference's spelling -/

/-- The first layer as the reference spells it, from the first product. -/
def refLayer1 (H : FVec Ideal S100000x128 .f32) (B1 : FVec Ideal S128 .f32) : FVec Ideal S100000x128 .f32 :=
  Cert.Layer.bcastCombineRelu (M := 100000) (N := 128) bcast_S100000_S100000x1_0 bcast_S100000x1_S100000x128_0_1
    bcast_S128_S1x128_1 bcast_S1x128_S100000x128_0_1 bcast_S_S100000x128 (Cert.Graph.agg128 E H) H (Cert.Graph.invdeg E) B1

/-- The second layer as the reference spells it, from the second product. -/
def refLayer2 (H : FVec Ideal S100000x40 .f32) (B2 : FVec Ideal S40 .f32) : FVec Ideal S100000x40 .f32 :=
  Cert.Layer.bcastCombine (M := 100000) (N := 40) bcast_S100000_S100000x1_0 bcast_S100000x1_S100000x40_0_1
    bcast_S40_S1x40_1 bcast_S1x40_S100000x40_0_1 (Cert.Graph.agg40 E H) H (Cert.Graph.invdeg E) B2

/-- The reference's whole computation. -/
def refNet (X : FVec Ideal S100000x256 .f32) (W1 : FVec Ideal S256x128 .f32) (B1 : FVec Ideal S128 .f32)
    (W2 : FVec Ideal S128x40 .f32) (B2 : FVec Ideal S40 .f32) : FVec Ideal S100000x40 .f32 :=
  refLayer2 E (Host.dotGeneral dot_S100000x128_S128x40_S100000x40_1_0_0_1_n_n none
    (refLayer1 E (Host.dotGeneral dot_S100000x256_S256x128_S100000x128_1_0_0_1_n_n none X W1) B1) W2) B2

/-! ## The two agree -/

theorem prod1_eq (X : FVec Ideal S100000x256 .f32) (W1 : FVec Ideal S256x128 .f32) :
    Host.dotGeneral dot_S100000x256_S256x128_S100000x128_1_0_0_1_n_n none X W1 = Cert.Layer.matProd X W1 :=
  Cert.Layer.dotGeneral_eq_matProd dot_S100000x256_S256x128_S100000x128_1_0_0_1_n_n.wf none .single X W1

theorem prod2_eq (A : FVec Ideal S100000x128 .f32) (W2 : FVec Ideal S128x40 .f32) :
    Host.dotGeneral dot_S100000x128_S128x40_S100000x40_1_0_0_1_n_n none A W2 = Cert.Layer.matProd A W2 :=
  Cert.Layer.dotGeneral_eq_matProd dot_S100000x128_S128x40_S100000x40_1_0_0_1_n_n.wf none .single A W2

theorem refLayer1_eq (H : FVec Ideal S100000x128 .f32) (B1 : FVec Ideal S128 .f32) :
    refLayer1 E H B1 = Cert.Layer.combineRelu (Cert.Graph.agg128 E H) H
      (shapeCast S100000x1 (Cert.Graph.invdeg E) ci) (shapeCast S1x128 B1 cb1) :=
  Cert.Layer.bcastCombineRelu_eq _ _ _ _ _ _ _ _ _ ci cb1

theorem refLayer2_eq (H : FVec Ideal S100000x40 .f32) (B2 : FVec Ideal S40 .f32) :
    refLayer2 E H B2 = Cert.Layer.combine (Cert.Graph.agg40 E H) H
      (shapeCast S100000x1 (Cert.Graph.invdeg E) ci) (shapeCast S1x40 B2 cb2) :=
  Cert.Layer.bcastCombine_eq _ _ _ _ _ _ _ _ ci cb2

theorem refNet_eq_network (X : FVec Ideal S100000x256 .f32) (W1 : FVec Ideal S256x128 .f32) (B1 : FVec Ideal S128 .f32)
    (W2 : FVec Ideal S128x40 .f32) (B2 : FVec Ideal S40 .f32) :
    refNet E X W1 B1 W2 B2 = network ci cb1 cb2 E X W1 B1 W2 B2 := by
  unfold refNet network hidden
  rw [prod1_eq, refLayer1_eq ci cb1, prod2_eq, refLayer2_eq ci cb2]

end Cert.Net

end
-- ==== Proof.KernelValue.lean ====
/-
  The kernel program's result as the network of the launch arrays.

  Reading the boundary valuations forward: the first region leaves the product x · W₁; the second stretch aggregates it
  over the edges and the second region combines aggregate, product, inverse degree and first bias under max(·, 0), leaving
  the hidden features; the third region leaves their product with W₂; the last stretch aggregates that and the last
  region combines it with the inverse degree and the second bias into the result buffer. Each step is one region's
  whole-array form at the arrays it finds, and those arrays are what the stretch before it leaves.
-/
import proofs.«180480_j15985868276092_1_alg».proof.Proof.ResultRun
import proofs.«180480_j15985868276092_1_alg».proof.Proof.Region0Product
import proofs.«180480_j15985868276092_1_alg».proof.Proof.Region1Combine
import proofs.«180480_j15985868276092_1_alg».proof.Proof.Region2Product
import proofs.«180480_j15985868276092_1_alg».proof.Proof.Region3Combine
import proofs.«180480_j15985868276092_1_alg».proof.Proof.HostStretches
import proofs.«180480_j15985868276092_1_alg».proof.Proof.Network

set_option maxRecDepth 16384

noncomputable section

namespace Cert.KernelIdeal.Whole

open Idealize.ShloMosaic Idealize.ShloMosaic.TcCoe
open Idealize.SL.Sem
open Cert.KernelIdeal Cert.KernelIdeal.Gen

variable (m : (ℓ : Loc nD τ sig) → Buf (Elt Ideal) ℓ) (ρ : Dev nD → PrngReg) (c : Dev nD)

/-- After the first region: the product of the features with the first weights. -/
theorem first_product :
    W2 m ρ c (Proc.devRef .tc main_v28) = Cert.Layer.matProd (m ((c : Thread nD τ).loc main_arg0)) (m ((c : Thread nD τ).loc main_arg2)) := by
  refine (W2_arr m ρ c 2).trans ((region0_array (V1 m ρ) c).trans ?_)
  show Cert.Layer.matProd (W1 m ρ c (Proc.devRef .tc main_arg0)) (W1 m ρ c (Proc.devRef .tc main_arg2)) = _
  rw [first_main_arg0, first_main_arg2]

/-- After the second region: the hidden features. -/
theorem hidden_array :
    W4 m ρ c (Proc.devRef .tc main_v44)
      = Cert.Net.hidden Facts₀.shapeCasts_S100000_S100000x1 Facts₀.shapeCasts_S128_S1x128 (m ((c : Thread nD τ).loc main_arg1)) (m ((c : Thread nD τ).loc main_arg0)) (m ((c : Thread nD τ).loc main_arg2)) (m ((c : Thread nD τ).loc main_arg3)) := by
  refine (W4_arr m ρ c 4).trans ((region1_array (V3 m ρ) c).trans ?_)
  rw [second_agg, second_prod, second_invdeg, second_bias, first_product]
  rfl

/-- After the third region: the product of the hidden features with the second weights. -/
theorem second_product :
    W5 m ρ c (Proc.devRef .tc main_v45)
      = Cert.Layer.matProd (Cert.Net.hidden Facts₀.shapeCasts_S100000_S100000x1 Facts₀.shapeCasts_S128_S1x128 (m ((c : Thread nD τ).loc main_arg1)) (m ((c : Thread nD τ).loc main_arg0)) (m ((c : Thread nD τ).loc main_arg2)) (m ((c : Thread nD τ).loc main_arg3))) (m ((c : Thread nD τ).loc main_arg4)) := by
  refine (W5_arr m ρ c 2).trans ((region2_array (V4 m ρ) c).trans ?_)
  show Cert.Layer.matProd (W4 m ρ c (Proc.devRef .tc main_v44)) (W4 m ρ c (Proc.devRef .tc main_arg4)) = _
  rw [hidden_array, at4_main_arg4]

/-- After the last region: the result buffer holds the network of the launch arrays. -/
theorem result_array :
    W7 m ρ c (Proc.devRef .tc main_v61)
      = Cert.Net.network Facts₀.shapeCasts_S100000_S100000x1 Facts₀.shapeCasts_S128_S1x128 Facts₀.shapeCasts_S40_S1x40
          (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) := by
  refine (W7_arr m ρ c 4).trans ((region3_array (V6 m ρ) c).trans ?_)
  rw [fourth_agg, fourth_prod, fourth_invdeg, fourth_bias, second_product]
  rfl

/-- The kernel program's run: it terminates without a fault with the result buffer at the network of the launch arrays
    and the arguments as launched. -/
theorem kernel_run : θ_run defs (onTc (τ := τ) (main (F := Ideal))) ⟨m, fun _ => 0, ρ⟩ (fun r => ∀ c : Dev nD,
      r.2.mem ((c.tc : Thread nD τ).loc main_v61)
        = Cert.Net.network Facts₀.shapeCasts_S100000_S100000x1 Facts₀.shapeCasts_S128_S1x128 Facts₀.shapeCasts_S40_S1x40
            (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_array m ρ c), (h c).2⟩) (run_result m ρ)

end Cert.KernelIdeal.Whole

end
-- ==== Proof.ReferenceValue.lean ====
/-
  The reference's result as the network of the launch arrays.

  The reference's run ends with its result buffer at the composition of its operations, stage by stage. Read in order:
  the stages up to the degree, the edge weight and the inverse degree are the graph terms of the edge array (the reference
  computes each of them once per layer, the same term both times); the stage after the first scatter-add is the aggregate
  of the first product, and the stage after the first maximum is the first layer in the reference's spelling; likewise
  the last stage is the second layer from the second product. The two products are dot_generals of the stages before
  them. So the last stage is the reference's spelling of the network, which is the network.
-/
import proofs.«180480_j15985868276092_1_alg».proof.Proof.Gen.ReferenceIdeal.Run
import proofs.«180480_j15985868276092_1_alg».proof.Proof.Gen.ReferenceIdeal.Read
import proofs.«180480_j15985868276092_1_alg».proof.Proof.Network

set_option maxRecDepth 16384

noncomputable section

namespace Cert.ReferenceIdeal.Whole

open Idealize.ShloMosaic Idealize.ShloMosaic.TcCoe Idealize.SL.Sem
open Cert.ReferenceIdeal Cert.ReferenceIdeal.Read

variable (x0 : FVec Ideal S100000x256 .f32) (x1 : Cert.Graph.Edges) (x2 : FVec Ideal S256x128 .f32) (x3 : FVec Ideal S128 .f32) (x4 : FVec Ideal S128x40 .f32) (x5 : FVec Ideal S40 .f32)

/-! ## The graph stages -/

theorem stage_src : val_main_v2 (F := Ideal) x1 = Cert.Graph.src x1 := rfl
theorem stage_dst : val_main_v4 (F := Ideal) x1 = Cert.Graph.dst x1 := rfl
theorem stage_src' : val_main_v52 (F := Ideal) x1 = Cert.Graph.src x1 := rfl
theorem stage_dst' : val_main_v54 (F := Ideal) x1 = Cert.Graph.dst x1 := rfl

theorem stage_deg : val_main_v10 (F := Ideal) x1 = Cert.Graph.deg x1 := by
  unfold val_main_v10 val_main_v8 val_main_v7 val_main_v6 val_main_v5 val_main_v9 val_main_cst val_main_cst_0 val_main_cst_1
  rw [stage_dst]; rfl
theorem stage_deg' : val_main_v60 (F := Ideal) x1 = Cert.Graph.deg x1 := by
  unfold val_main_v60 val_main_v58 val_main_v57 val_main_v56 val_main_v55 val_main_v59 val_main_cst_9 val_main_cst_10 val_main_cst_11
  rw [stage_dst']; rfl

theorem stage_wrapped_src : val_main_v17 (F := Ideal) x1 = Cert.Graph.wrapped (Cert.Graph.src x1) := by
  unfold val_main_v17 val_main_v16 val_main_v15 val_main_v14 val_main_v13 val_main_v12 val_main_c val_main_c_2
  rw [stage_src]; rfl
theorem stage_wrapped_dst : val_main_v24 (F := Ideal) x1 = Cert.Graph.wrapped (Cert.Graph.dst x1) := by
  unfold val_main_v24 val_main_v23 val_main_v22 val_main_v21 val_main_v20 val_main_v19 val_main_c_3 val_main_c_4
  rw [stage_dst]; rfl
theorem stage_wrapped_src2 : val_main_v32 (F := Ideal) x1 = Cert.Graph.wrapped (Cert.Graph.src x1) := by
  unfold val_main_v32 val_main_v31 val_main_v30 val_main_v29 val_main_v28 val_main_v27 val_main_c_5 val_main_c_6
  rw [stage_src]; rfl
theorem stage_wrapped_src' : val_main_v67 (F := Ideal) x1 = Cert.Graph.wrapped (Cert.Graph.src x1) := by
  unfold val_main_v67 val_main_v66 val_main_v65 val_main_v64 val_main_v63 val_main_v62 val_main_c_12 val_main_c_13
  rw [stage_src']; rfl
theorem stage_wrapped_dst' : val_main_v74 (F := Ideal) x1 = Cert.Graph.wrapped (Cert.Graph.dst x1) := by
  unfold val_main_v74 val_main_v73 val_main_v72 val_main_v71 val_main_v70 val_main_v69 val_main_c_14 val_main_c_15
  rw [stage_dst']; rfl
theorem stage_wrapped_src2' : val_main_v82 (F := Ideal) x1 = Cert.Graph.wrapped (Cert.Graph.src x1) := by
  unfold val_main_v82 val_main_v81 val_main_v80 val_main_v79 val_main_v78 val_main_v77 val_main_c_16 val_main_c_17
  rw [stage_src']; rfl

theorem stage_weight : val_main_v26 (F := Ideal) x1 = Cert.Graph.weight x1 := by
  unfold val_main_v26 val_main_v18 val_main_v25 val_main_v11
  rw [stage_deg, stage_wrapped_src, stage_wrapped_dst]; rfl
theorem stage_weight' : val_main_v76 (F := Ideal) x1 = Cert.Graph.weight x1 := by
  unfold val_main_v76 val_main_v68 val_main_v75 val_main_v61
  rw [stage_deg', stage_wrapped_src', stage_wrapped_dst']; rfl

theorem stage_invdeg : val_main_v41 (F := Ideal) x1 = Cert.Graph.invdeg x1 := by
  unfold val_main_v41 val_main_v40 val_main_cst_8
  rw [stage_deg]; rfl
theorem stage_invdeg' : val_main_v91 (F := Ideal) x1 = Cert.Graph.invdeg x1 := by
  unfold val_main_v91 val_main_v90 val_main_cst_19
  rw [stage_deg']; rfl

/-! ## The aggregates and the layers -/

theorem stage_agg128 : val_main_v39 (F := Ideal) x0 x1 x2 = Cert.Graph.agg128 x1 (val_main_v0 (F := Ideal) x0 x2) := by
  unfold val_main_v39 val_main_v38 val_main_v37 val_main_v36 val_main_v35 val_main_v34 val_main_v33 val_main_cst_7
  rw [stage_dst, stage_weight, stage_wrapped_src2]; rfl

theorem stage_layer1 : val_main_v49 (F := Ideal) x0 x1 x2 x3 = Cert.Net.refLayer1 x1 (val_main_v0 (F := Ideal) x0 x2) x3 := by
  unfold val_main_v49 val_main_v48 val_main_v47 val_main_v46 val_main_v45 val_main_v44 val_main_v43 val_main_v42 val_main_call0_v0 val_main_call0_cst
  rw [stage_agg128, stage_invdeg]; rfl

theorem stage_agg40 : val_main_v89 (F := Ideal) x0 x1 x2 x3 x4
    = Cert.Graph.agg40 x1 (val_main_v50 (F := Ideal) x0 x1 x2 x3 x4) := by
  unfold val_main_v89 val_main_v88 val_main_v87 val_main_v86 val_main_v85 val_main_v84 val_main_v83 val_main_cst_18
  rw [stage_dst', stage_weight', stage_wrapped_src2']; rfl

theorem stage_layer2 : val_main_v98 (F := Ideal) x0 x1 x2 x3 x4 x5
    = Cert.Net.refLayer2 x1 (val_main_v50 (F := Ideal) x0 x1 x2 x3 x4) x5 := by
  unfold val_main_v98 val_main_v97 val_main_v96 val_main_v95 val_main_v94 val_main_v93 val_main_v92
  rw [stage_agg40, stage_invdeg']; rfl

/-- The last stage is the reference's spelling of the network. -/
theorem stage_net : val_main_v98 (F := Ideal) x0 x1 x2 x3 x4 x5 = Cert.Net.refNet x1 x0 x2 x3 x4 x5 := by
  rw [stage_layer2]
  unfold val_main_v50
  rw [stage_layer1]
  rfl

/-- The reference run's result term is the network of the launch arrays. -/
theorem reference_result (ci : S100000.ShapeCasts S100000x1) (cb1 : S128.ShapeCasts S1x128) (cb2 : S40.ShapeCasts S1x40)
    (m : (ℓ : Loc nD τ sig) → Buf (Elt Ideal) ℓ) (c : Dev nD) :
    Cert.ReferenceIdeal.Value.res_main_v98 m c
      = Cert.Net.network ci cb1 cb2 (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5)) :=
  (val_main_v98_eq (F := Ideal) m c).trans ((stage_net _ _ _ _ _ _).trans (Cert.Net.refNet_eq_network ci cb1 cb2 _ _ _ _ _ _))

end Cert.ReferenceIdeal.Whole

end
-- ==== Proof.lean ====
/-
  A two-layer graph convolution: tiled kernels for the two matrix products and the two elementwise combinations, the
  edge gather and scatter on the host, against the plain reference.

  Over the extended reals both programs compute ONE function of the six argument arrays,
      network(x, e, W₁, b₁, W₂, b₂) = agg(p₂) + p₂ · invdeg + b₂,   p₂ = h · W₂,   h = max(agg(p₁) + p₁ · invdeg + b₁, 0),   p₁ = x · W₁,
  where agg and invdeg depend on the edge array e alone.
    * The kernel program computes each product 5000 rows at a time on the matrix unit (the change to a 16-bit format is the
      identity here): a row of a product depends on that row of the left factor only, so the twenty blocks are the
      rows of the one textbook product. It computes each combination 5000 rows at a time from a column of inverse
      degrees and a row of biases; every operand is read at the output's own row, so the blocks are the rows of the one
      combination. Between the regions the host gathers, scales and scatter-adds along the edges.
    * The reference computes each product with one dot_general — the same textbook sum — and each combination with
      two-step broadcasts of the rank-1 inverse degree and bias, which read at an entry are that column and that row.
  The gather and scatter-add are the same operations on the same arguments on both sides and are never opened. No sum
  is reordered and no factor is moved across a sum, so the equality holds at every extended real and the precondition
  is not used. The idealized kernel is the kernel's own text read over the extended reals: no rewrite was applied, and
  that conjunct is trivial. The three frames are the generated ones, the reference's being its run with the result dropped.
-/
import proofs.«180480_j15985868276092_1_alg».proof.Defs
import proofs.«180480_j15985868276092_1_alg».proof.Proof.Gen.Kernel
import proofs.«180480_j15985868276092_1_alg».proof.Proof.Gen.Kernel.Skeleton
import proofs.«180480_j15985868276092_1_alg».proof.Proof.Gen.Kernel.Launch
import proofs.«180480_j15985868276092_1_alg».proof.Proof.Gen.Kernel.Points
import proofs.«180480_j15985868276092_1_alg».proof.Proof.Gen.Kernel.Frame
import proofs.«180480_j15985868276092_1_alg».proof.Proof.Gen.KernelIdeal
import proofs.«180480_j15985868276092_1_alg».proof.Proof.Gen.KernelIdeal.Skeleton
import proofs.«180480_j15985868276092_1_alg».proof.Proof.Gen.KernelIdeal.Launch
import proofs.«180480_j15985868276092_1_alg».proof.Proof.Gen.KernelIdeal.Points
import proofs.«180480_j15985868276092_1_alg».proof.Proof.Gen.KernelIdeal.Frame
import proofs.«180480_j15985868276092_1_alg».proof.Proof.Gen.ReferenceIdeal
import proofs.«180480_j15985868276092_1_alg».proof.Proof.Gen.Pre_finite_inputs
import proofs.«180480_j15985868276092_1_alg».proof.Proof.Gen.ReferenceIdeal.Run
import proofs.«180480_j15985868276092_1_alg».proof.Proof.KernelValue
import proofs.«180480_j15985868276092_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the network of those arguments. -/
theorem algebraic : Cert.algebraic_KernelIdeal_ReferenceIdeal := by
  intro m ρ m' ρ' _ hagree
  refine ⟨_, Cert.KernelIdeal.Whole.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Whole.reference_result Cert.KernelIdeal.Facts₀.shapeCasts_S100000_S100000x1
    Cert.KernelIdeal.Facts₀.shapeCasts_S128_S1x128 Cert.KernelIdeal.Facts₀.shapeCasts_S40_S1x40 m' c, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
